-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192 .f32) (main_arg3 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩
abbrev S512x2048 : Shape := ⟨2, ![512, 2048]⟩
abbrev S2048x2048 : Shape := ⟨2, ![2048, 2048]⟩
abbrev S1x2048 : Shape := ⟨2, ![1, 2048]⟩
abbrev S4x2048x8192 : Shape := ⟨3, ![4, 2048, 8192]⟩

abbrev nBuf : Space → Nat
  | .hbm => 33
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S4x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x2048, .bf16⟩
  | .hbm, ⟨25, _⟩ => ⟨S8192x2048, .bf16⟩
  | .hbm, ⟨26, _⟩ => ⟨S8192x2048, .bf16⟩
  | .hbm, ⟨27, _⟩ => ⟨S8192, .f32⟩
  | .hbm, ⟨28, _⟩ => ⟨S8192, .f32⟩
  | .hbm, ⟨29, _⟩ => ⟨S1x8192, .f32⟩
  | .hbm, ⟨30, _⟩ => ⟨S1x8192, .f32⟩
  | .hbm, ⟨31, _⟩ => ⟨S8192x8192, .f32⟩
  | .hbm, ⟨32, _⟩ => ⟨S4x2048x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4x2048x2048_S_d0_1_2 : S4x2048x2048.ReducesTo [0, 1, 2] S_
  h_S_ : 0 < S_.numel
  bcast_S_S4x2048x2048 : S_.BroadcastsInDim S4x2048x2048 (![] : Fin 0 → Fin S4x2048x2048.rank)
  bitsLt_bf16_f32 : FTy.bits .bf16 < FTy.bits .f32
  shapeCasts_S4x2048x2048_S8192x2048 : S4x2048x2048.ShapeCasts S8192x2048
  bcast_S_S8192 : S_.BroadcastsInDim S8192 (![] : Fin 0 → Fin S8192.rank)
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x8192_S4x2048x8192 : S8192x8192.ShapeCasts S4x2048x8192
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S4x2048x8192 : Shape := ⟨3, ![4, 2048, 8192]⟩
abbrev S1x1x8192 : Shape := ⟨3, ![1, 1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192, .f32⟩
  | .hbm, ⟨4, _⟩ => ⟨S4x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x8192, .f32⟩
  | .hbm, ⟨25, _⟩ => ⟨S8192, .f32⟩
  | .hbm, ⟨26, _⟩ => ⟨S8192, .f32⟩
  | .hbm, ⟨27, _⟩ => ⟨S1x1x8192, .f32⟩
  | .hbm, ⟨28, _⟩ => ⟨S4x2048x8192, .f32⟩
  | .hbm, ⟨29, _⟩ => ⟨S4x2048x8192, .f32⟩
  | .hbm, ⟨30, _⟩ => ⟨S1x1x8192, .f32⟩
  | .hbm, ⟨31, _⟩ => ⟨S4x2048x8192, .f32⟩
  | .hbm, ⟨32, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  reducesTo_S4x2048x2048_S_d0_1_2 : S4x2048x2048.ReducesTo [0, 1, 2] S_
  h_S_ : 0 < S_.numel
  bcast_S_S4x2048x2048 : S_.BroadcastsInDim S4x2048x2048 (![] : Fin 0 → Fin S4x2048x2048.rank)
  bcast_S_S8192 : S_.BroadcastsInDim S8192 (![] : Fin 0 → Fin S8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Spec.lean ====
/-
  A linear layer on quantized activations, as one function of four arrays.

  With xq the quantized activations [4, 2048, 2048], w the weights [8192, 2048] (one row per output channel), sc the
  combined per-channel scale [8192] and bias [8192], the layer's value at (b, s, o) is

      (∑ k < 2048, xq (b, s, k) · w (o, k)) · sc o + bias o

  on the extended reals (`layer`). The same value is reached through a flat layout: the activations re-laid as an
  [8192, 2048] matrix with row r = 2048·b + s, the scale and the bias as [1, 8192] rows, the product with the scale and
  bias applied on an [8192, 8192] matrix (`flatLayer`), and that matrix re-laid as [4, 2048, 8192]
  (`flatLayer_relaid`). Nothing here needs an entry to be finite: the two sides are the same sum, product and sum of the
  same entries, read at matching indices.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.QuantLinear

open Idealize.ShloMosaic Idealize.ShloMosaic.ValueIdx

/-- Activations: batch, sequence position, input feature. -/
abbrev SAct : Shape := ⟨3, ![4, 2048, 2048]⟩
/-- A matrix of 8192 rows (flattened positions, or output channels) by 2048 input features. -/
abbrev SMat : Shape := ⟨2, ![8192, 2048]⟩
/-- One entry per output channel. -/
abbrev SChan : Shape := ⟨1, ![8192]⟩
/-- The same as a single row. -/
abbrev SRow : Shape := ⟨2, ![1, 8192]⟩
/-- Flattened positions by output channels. -/
abbrev SFlat : Shape := ⟨2, ![8192, 8192]⟩
/-- Batch, sequence position, output channel. -/
abbrev SOut : Shape := ⟨3, ![4, 2048, 8192]⟩

/-- The layer on the flat layout: at (r, o) the contraction of row r of `A` with row o of `B`, times the scale row at o,
    plus the bias row at o. -/
def flatLayer (A B : SMat.Idx → EReal) (s b : SRow.Idx → EReal) : SFlat.Idx → EReal := fun j =>
  (∑ k : Fin 2048, A (ix2 (j 0) k) * B (ix2 (j 1) k)) * s (ix2 (0 : Fin 1) (j 1)) + b (ix2 (0 : Fin 1) (j 1))

/-- The layer on the three-axis layout: at (b, s, o) the contraction of the activations at (b, s, ·) with row o of the
    weights, times the scale at o, plus the bias at o. -/
def layer (xq : SAct.Idx → EReal) (w : SMat.Idx → EReal) (sc bias : SChan.Idx → EReal) : SOut.Idx → EReal := fun i =>
  (∑ k : Fin 2048, xq (ix3 (i 0) (i 1) k) * w (ix2 (i 2) k)) * sc (ix1 (i 2)) + bias (ix1 (i 2))

/-- The activations re-laid as a matrix, read at (2048·b + s, k), are the activations at (b, s, k). -/
theorem act_relaid (xq : SAct.Idx → EReal) (h : SAct.ShapeCasts SMat) (b : Fin 4) (s : Fin 2048) (k : Fin 2048)
    (r : Fin 8192) (hr : r.val = b.val * 2048 + s.val) :
    shapeCast SMat xq h (ix2 r k) = xq (ix3 b s k) :=
  shapeCast_apply xq h _ _ (by
    rw [Shape.rowMajor_val_three, Shape.rowMajor_val_two]
    show (b.val * 2048 + s.val) * 2048 + k.val = r.val * 2048 + k.val
    rw [hr])

/-- The flat result re-laid on three axes, read at (b, s, o), is the flat result at (2048·b + s, o). -/
theorem out_relaid (f : SFlat.Idx → EReal) (h : SFlat.ShapeCasts SOut) (b : Fin 4) (s : Fin 2048) (o : Fin 8192)
    (r : Fin 8192) (hr : r.val = b.val * 2048 + s.val) :
    shapeCast SOut f h (ix3 b s o) = f (ix2 r o) :=
  shapeCast_apply f h _ _ (by
    rw [Shape.rowMajor_val_three, Shape.rowMajor_val_two]
    show r.val * 8192 + o.val = (b.val * 2048 + s.val) * 8192 + o.val
    rw [hr])

/-- THE LAYOUT LAW: the flat layer of the re-laid arrays, re-laid on three axes, is the layer. -/
theorem flatLayer_relaid (xq : SAct.Idx → EReal) (w : SMat.Idx → EReal) (sc bias : SChan.Idx → EReal)
    (h1 : SAct.ShapeCasts SMat) (h2 : SChan.ShapeCasts SRow) (h3 : SFlat.ShapeCasts SOut) :
    shapeCast SOut (flatLayer (shapeCast SMat xq h1) w (shapeCast SRow sc h2) (shapeCast SRow bias h2)) h3
      = layer xq w sc bias := by
  funext i
  obtain ⟨b, s, o, rfl⟩ : ∃ (b : Fin 4) (s : Fin 2048) (o : Fin 8192), i = ix3 b s o := ⟨i 0, i 1, i 2, eq_ix3 i⟩
  have hlt : b.val * 2048 + s.val < 8192 := by have := b.isLt; have := s.isLt; omega
  rw [out_relaid _ h3 b s o ⟨b.val * 2048 + s.val, hlt⟩ rfl]
  show (∑ k : Fin 2048, shapeCast SMat xq h1 (ix2 ⟨b.val * 2048 + s.val, hlt⟩ k) * w (ix2 o k))
      * shapeCast SRow sc h2 (ix2 (0 : Fin 1) o) + shapeCast SRow bias h2 (ix2 (0 : Fin 1) o)
    = (∑ k : Fin 2048, xq (ix3 b s k) * w (ix2 o k)) * sc (ix1 o) + bias (ix1 o)
  rw [shapeCast_a_1a_apply sc h2 0 o, shapeCast_a_1a_apply bias h2 0 o]
  refine congrArg (fun z => z * sc (ix1 o) + bias (ix1 o)) (Finset.sum_congr rfl fun k _ => ?_)
  rw [act_relaid xq h1 b s k ⟨b.val * 2048 + s.val, hlt⟩ rfl]

end Cert.QuantLinear

end
-- ==== Proof.Reference.lean ====
/-
  The reference's result is the layer of its own quantized activations and combined scale.

  The reference contracts the quantized activations [4, 2048, 2048] with the weights [8192, 2048] over the input
  feature, multiplies by the combined scale broadcast over batch and position, and adds the bias broadcast the same
  way. Read at (b, s, o), stage by stage, that is (∑ k, xq (b, s, k) · w (o, k)) · sc o + bias o.
-/
import proofs.«108498_j77859167142257_2_alg».proof.Proof.Gen.ReferenceIdeal.Read
import proofs.«108498_j77859167142257_2_alg».proof.Proof.Spec

noncomputable section

open scoped BigOperators

namespace Cert.QuantLinear.Ref

open Idealize.ShloMosaic Idealize.ShloMosaic.ValueIdx
open Cert.ReferenceIdeal Cert.ReferenceIdeal.Read

/-- THE REFERENCE'S LAST STAGE is the layer of the quantized activations (its stage %8), the weights, the combined
    scale (its stage %11) and the bias. -/
theorem result_eq (x0 : FVec Ideal S4x2048x2048 .f32) (x1 : FVec Ideal S8192x2048 .f32) (x2 x3 : FVec Ideal S8192 .f32) :
    val_main_v17 (F := Ideal) x0 x1 x2 x3
      = QuantLinear.layer (val_main_v8 (F := Ideal) x0) x1 (val_main_v11 (F := Ideal) x0 x2) x3 := by
  funext i
  obtain ⟨b, s, o, rfl⟩ : ∃ (b : Fin 4) (s : Fin 2048) (o : Fin 8192), i = ix3 b s o := ⟨i 0, i 1, i 2, eq_ix3 i⟩
  have e1 : ∀ k : Fin 2048, lidx_main_v9 (ix3 b s o) k = ix3 b s k := fun k => funext fun a => Fin.ext (by
    match a with
    | ⟨0, _⟩ => rfl
    | ⟨1, _⟩ => rfl
    | ⟨2, _⟩ => rfl)
  have e2 : ∀ k : Fin 2048, ridx_main_v9 (ix3 b s o) k = ix2 o k := fun k => funext fun a => Fin.ext (by
    match a with
    | ⟨0, _⟩ => rfl
    | ⟨1, _⟩ => rfl)
  have e3 : idx_main_v12 (idx_main_v13 (ix3 b s o)) = ix1 o := funext fun a => Fin.ext (by
    match a with
    | ⟨0, _⟩ => rfl)
  have e4 : idx_main_v15 (idx_main_v16 (ix3 b s o)) = ix1 o := funext fun a => Fin.ext (by
    match a with
    | ⟨0, _⟩ => rfl)
  rw [val_main_v17_apply, val_main_v14_apply, val_main_v9_apply, val_main_v13_apply, val_main_v12_apply,
    val_main_v16_apply, val_main_v15_apply, e3, e4]
  simp only [e1, e2]
  rfl

end Cert.QuantLinear.Ref

end
-- ==== Proof.Entry.lean ====
/-
  What the region finds in the four arrays it stages, as functions of the program's arguments.

  Before the region the host computes, from the activations x: the activation scale (the largest |x| over the whole
  array divided by 127, or 1 when that maximum is 0), the quantized activations (x divided by the scale, rounded to
  the nearest even integer, clamped to [-127, 127]), and the combined scale (the activation scale times the
  per-channel weight scale). It then hands the region the quantized activations narrowed to bf16 and re-laid as an
  [8192, 2048] matrix, the weights narrowed to bf16, and the combined scale and the bias each re-laid as a [1, 8192]
  row. All of this is read off the host's operations one by one, for any float values; at the ideal values the
  narrowing to bf16 is the identity (`narrow_ideal`).
-/
import proofs.«108498_j77859167142257_2_alg».proof.Proof.Gen.KernelIdeal.Frame
import Idealize.ShloMosaic.Lib.StableHlo.Run
import Idealize.ShloMosaic.PureOps.Ideal.Laws

noncomputable section

namespace Cert.QuantLinear.Entry

open Idealize.ShloMosaic Idealize.ShloMosaic.TcCoe Idealize.SL.Sem Idealize.ShloMosaic.StableHlo
open Cert.KernelIdeal Cert.KernelIdeal.Gen

variable {F : FTy → Type} [FloatOps F]

/-- The activation scale: the maximum of |x| over the whole array divided by 127, or 1 when the maximum is 0. -/
def actScale (x : FVec F S4x2048x2048 .f32) : FVec F S_ .f32 :=
  select (cmpf .oeq (Host.reduce FloatOps.maximumf (Host.absf x) (constant S_ .f32 0xFF800000#32) reducesTo_S4x2048x2048_S_d0_1_2 h_S_) (constant S_ .f32 0x00000000#32))
    (constant S_ .f32 0x3F800000#32)
    (Host.divf (Host.reduce FloatOps.maximumf (Host.absf x) (constant S_ .f32 0xFF800000#32) reducesTo_S4x2048x2048_S_d0_1_2 h_S_) (constant S_ .f32 0x42FE0000#32))

/-- The quantized activations: x over the activation scale, rounded to the nearest even integer, clamped to
    [-127, 127]. -/
def quantized (x : FVec F S4x2048x2048 .f32) : FVec F S4x2048x2048 .f32 :=
  minimumf (broadcastInDim S4x2048x2048 ![] bcast_S_S4x2048x2048 (id (constant S_ .f32 0x42FE0000#32)))
    (maximumf (broadcastInDim S4x2048x2048 ![] bcast_S_S4x2048x2048 (id (constant S_ .f32 0xC2FE0000#32)))
      (Host.roundeven (Host.divf x (broadcastInDim S4x2048x2048 ![] bcast_S_S4x2048x2048 (actScale x)))))

/-- The combined scale: the activation scale, the same for every channel, times the channel's weight scale. -/
def combinedScale (x : FVec F S4x2048x2048 .f32) (ws : FVec F S8192 .f32) : FVec F S8192 .f32 :=
  mulf (broadcastInDim S8192 ![] bcast_S_S8192 (actScale x)) ws

variable (m : (ℓ : Loc nD τ sig) → Buf (Elt F) ℓ)

/-- The first staged array: the quantized activations, narrowed, re-laid as a matrix. -/
theorem staged_act (c : Dev nD) : (V m c main_v10 : Vec F S8192x2048 .bf16)
    = shapeCast S8192x2048 (truncf .bf16 (quantized (m ((c : Thread nD τ).loc main_arg0))) bitsLt_bf16_f32) shapeCasts_S4x2048x2048_S8192x2048 := by
  unfold quantized actScale
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The second: the weights, narrowed. -/
theorem staged_weights (c : Dev nD) : (V m c main_v11 : Vec F S8192x2048 .bf16)
    = truncf .bf16 (m ((c : Thread nD τ).loc main_arg1)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results

/-- The third: the combined scale as a row. -/
theorem staged_scale (c : Dev nD) : (V m c main_v14 : Vec F S1x8192 .f32)
    = shapeCast S1x8192 (combinedScale (m ((c : Thread nD τ).loc main_arg0)) (m ((c : Thread nD τ).loc main_arg2))) shapeCasts_S8192_S1x8192 := by
  unfold combinedScale actScale
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The fourth: the bias as a row. -/
theorem staged_bias (c : Dev nD) : (V m c main_v15 : Vec F S1x8192 .f32)
    = shapeCast S1x8192 (m ((c : Thread nD τ).loc main_arg3)) shapeCasts_S8192_S1x8192 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- At the ideal values narrowing to bf16 changes nothing. -/
theorem narrow_ideal {s : Shape} (v : FVec Ideal s .f32) (h : FTy.bits .bf16 < FTy.bits .f32) :
    (truncf .bf16 v h : FVec Ideal s .bf16) = v := rfl

end Cert.QuantLinear.Entry

end
-- ==== Proof.LibMatmulNT.lean ====
/-
  A matrix product with the right operand contracted on its LAST axis, read at an index, at the ideal values.

  For an M×K matrix A and an N×K matrix B, the product that contracts axis 1 of both (dimension numbers
  [1], [1], [0], [0], no batch axis: A · Bᵀ) has at (a, b) the entry

      acc (a, b) + ∑ c < K, A (a, c) · B (b, c)

  on the extended reals, and just the sum when the accumulator is the zero splat. The index of the contraction is
  the one coordinate c; the operand indices at output (a, b) and contraction position c are (a, c) and (b, c).
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

variable {M K N : Nat}

/-- The left operand's index at output (a, b) and contraction position c is (a, c). -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have c2 := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact c2

/-- The right operand's index at output (a, b) and contraction position c is (b, c). -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have c2 := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A · Bᵀ accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![N, K]⟩ φ₂) (acc : FVec Ideal ⟨2, ![M, N]⟩ .f32) (a : Fin M) (b : Fin N) :
    FloatOps.matmul (DotDims.transposedRhs M K N) prec A B acc (ix2 a b)
      = acc (ix2 a b) + ∑ c : Fin K, A (ix2 a c) * B (ix2 b c) := by
  rw [Ideal.matmul_apply, ← Equiv.sum_comp (contrEquiv1 (DotDims.transposedRhs M K N) K rfl rfl).symm]
  refine congrArg (acc (ix2 a b) + ·) (Finset.sum_congr rfl fun c _ => ?_)
  rw [lhsIdx_transposedRhs, rhsIdx_transposedRhs]

/-- A · Bᵀ into the zero splat, at (a, b): the sum over the contracted coordinate. -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.MatmulNT

end
-- ==== Proof.Payload.lean ====
/-
  The kernel body's stored value at an index.

  The body loads a 512×2048 block of the re-laid activations, a 2048×2048 block of the weights (2048 output channels by
  2048 input features), and the matching 1×2048 pieces of the scale row and of the bias row; it contracts the last axis
  of the two matrices into a zero accumulator, multiplies by the scale row broadcast down the 512 rows, and adds the
  bias row broadcast the same way. At (p, q) of the block that is

      (∑ k < 2048, x0 (p, k) · x1 (q, k)) · x2 (0, q) + x3 (0, q)

  at the ideal values: the zero accumulator adds nothing, the casts to the same shape are the identity.
-/
import proofs.«108498_j77859167142257_2_alg».proof.Proof.Gen.KernelIdeal.Skeleton
import proofs.«108498_j77859167142257_2_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.QuantLinear.Body

open Idealize.ShloMosaic Idealize.ShloMosaic.ValueIdx Cert.KernelIdeal Cert.KernelIdeal.Gen

/-- The body's contraction record is the product with the right operand contracted on its last axis. -/
theorem dot_eq : dot_S512x2048_S2048x2048_S512x2048_1_1_0_0_n_n = DotDims.transposedRhs 512 2048 2048 := rfl

/-- The product of the two loaded matrices into the zero accumulator, at (p, q): the contraction of row p of the
    first with row q of the second. -/
theorem product_apply (x0 : FVec Ideal S512x2048 .bf16) (x1 : FVec Ideal S2048x2048 .bf16) (p : Fin 512) (q : Fin 2048) :
    matmul (F := Ideal) dot_S512x2048_S2048x2048_S512x2048_1_1_0_0_n_n none x0 x1 (constant S512x2048 .f32 0x00000000#32) (ix2 p q)
      = ∑ k : Fin 2048, x0 (ix2 p k) * x1 (ix2 q k) := by
  rw [dot_eq]
  exact MatmulNT.matmul_zero_apply none x0 x1 p q

/-- THE STORED VALUE at (p, q). -/
theorem stored_apply (x0 : Vec Ideal S512x2048 .bf16) (x1 : Vec Ideal S2048x2048 .bf16) (x2 x3 : Vec Ideal S1x2048 .f32)
    (p : Fin 512) (q : Fin 2048) :
    k0_pay1 (F := Ideal) x0 x1 x2 x3 (ix2 p q)
      = (∑ k : Fin 2048, x0 (ix2 p k) * x1 (ix2 q k)) * x2 (ix2 (0 : Fin 1) q) + x3 (ix2 (0 : Fin 1) q) := by
  unfold k0_pay1
  show matmul (F := Ideal) dot_S512x2048_S2048x2048_S512x2048_1_1_0_0_n_n none (shapeCast S512x2048 x0 _) (shapeCast S2048x2048 x1 _)
        (constant S512x2048 .f32 0x00000000#32) (ix2 p q)
      * broadcastTo S512x2048 (shapeCast S1x2048 x2 _) _ (ix2 p q)
      + broadcastTo S512x2048 (shapeCast S1x2048 x3 _) _ (ix2 p q) = _
  rw [shapeCast_self x0, shapeCast_self x1, shapeCast_self x2, shapeCast_self x3,
    broadcastTo_1b_ab_apply x2 _ p q, broadcastTo_1b_ab_apply x3 _ p q, product_apply x0 x1 p q]

end Cert.QuantLinear.Body

end
-- ==== Proof.Tiling.lean ====
/-
  The grid's schedule and the tiling of the output.

  The grid has 64 points; point t works on block row t mod 16 of the re-laid activations (512 rows each) and on block
  t div 16 of the output channels (2048 channels each), and writes the 512×2048 block of the output at that block row
  and block column. The 16 × 4 output blocks tile the 8192 × 8192 output: the index (r, o) lies in the block of the
  point 16·(o div 2048) + r div 512. One entry of a block is the flat layer's value there, given that the loaded pieces
  are the matching rows and columns of the staged arrays.
-/
import proofs.«108498_j77859167142257_2_alg».proof.Proof.Gen.KernelIdeal.Frame
import proofs.«108498_j77859167142257_2_alg».proof.Proof.Spec
import proofs.«108498_j77859167142257_2_alg».proof.Proof.Payload
import Idealize.ShloMosaic.Lib.Pipeline.Value
import Idealize.ShloMosaic.Lib.ValueIdx

noncomputable section

open scoped BigOperators

namespace Cert.QuantLinear.Tiling

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Every access of the body starts at the block's origin. -/
theorem origin : (![0, 0] : Fin 2 → Nat) = fun _ => 0 := funext fun a => by fin_cases a <;> rfl

/-- The block each window is on at point t, per axis: the activations' block row is t mod 16, the weights' block row
    and the two rows' block column are t div 16, and the output's block is (t mod 16, t div 16). -/
theorem block_indices : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = t.val / 16
    ∧ win0_3.index t (0 : Fin 2) = 0 ∧ win0_3.index t (1 : Fin 2) = t.val / 16
    ∧ win0_4.index t (0 : Fin 2) = t.val % 16 ∧ win0_4.index t (1 : Fin 2) = t.val / 16 :=
  (by decide +kernel : ∀ t : Fin grid0.N, _)

/-- One entry of a block: if the loaded pieces are the rows R of `A`, C of `B` and the columns C of the two rows, the
    body's stored value at (p, q) is the flat layer at (R, C). -/
theorem block_value (A B : QuantLinear.SMat.Idx → EReal) (s b : QuantLinear.SRow.Idx → EReal)
    (x0 : Vec Ideal S512x2048 .bf16) (x1 : Vec Ideal S2048x2048 .bf16) (x2 x3 : Vec Ideal S1x2048 .f32)
    (p : Fin 512) (q : Fin 2048) (R C : Fin 8192)
    (h0 : ∀ k : Fin 2048, x0 (ix2 p k) = A (ix2 R k))
    (h1 : ∀ k : Fin 2048, x1 (ix2 q k) = B (ix2 C k))
    (h2 : x2 (ix2 (0 : Fin 1) q) = s (ix2 (0 : Fin 1) C))
    (h3 : x3 (ix2 (0 : Fin 1) q) = b (ix2 (0 : Fin 1) C)) :
    k0_pay1 (F := Ideal) x0 x1 x2 x3 (ix2 p q) = QuantLinear.flatLayer A B s b (ix2 R C) := by
  rw [Body.stored_apply x0 x1 x2 x3 p q, h2, h3]
  show _ = (∑ k : Fin 2048, A (ix2 R k) * B (ix2 C k)) * s (ix2 (0 : Fin 1) C) + b (ix2 (0 : Fin 1) C)
  refine congrArg (fun z => z * s (ix2 (0 : Fin 1) C) + b (ix2 (0 : Fin 1) C)) (Finset.sum_congr rfl fun k _ => ?_)
  rw [h0 k, h1 k]

/-- An index of the output is in point t's block iff each coordinate is in the block's range on its axis. -/
theorem mem_block (t : Fin cfg0.N) (i : S8192x8192.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v16).slice (win0_4.rect t)).set ↔ _
  rw [View.set_slice_whole, Rect.mem_set_unit]
  exact Iff.rfl

/-- THE BLOCKS TILE THE OUTPUT: the index (r, o) is in the block of the point 16·(o div 2048) + r div 512. -/
theorem covered (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  obtain ⟨t, ht⟩ : ∃ t : Fin cfg0.N, t.val = (i 1).val / 2048 * 16 + (i 0).val / 512 :=
    ⟨⟨(i 1).val / 2048 * 16 + (i 0).val / 512, by show _ < 64; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

end Cert.QuantLinear.Tiling

end
-- ==== Proof.Region.lean ====
/-
  The region's output array after the run: the flat layer of the four staged arrays.

  At point t the body is run on the blocks the windows are on: rows 512·(t mod 16) … of the activation matrix, rows
  2048·(t div 16) … of the weights, the same columns of the scale row and of the bias row. Its stored value, read
  through those blocks, is the flat layer at the output block's indices; the blocks tile the output, so the whole
  output array ends holding the flat layer.
-/
import proofs.«108498_j77859167142257_2_alg».proof.Proof.Gen.KernelIdeal.Frame
import proofs.«108498_j77859167142257_2_alg».proof.Proof.Spec
import proofs.«108498_j77859167142257_2_alg».proof.Proof.Payload
import proofs.«108498_j77859167142257_2_alg».proof.Proof.Tiling
import Idealize.ShloMosaic.Lib.Pipeline.Value
import Idealize.ShloMosaic.Lib.ValueIdx

noncomputable section

open scoped BigOperators

namespace Cert.QuantLinear.Region

open Idealize.ShloMosaic Idealize.ShloMosaic.TcCoe Idealize.ShloMosaic.ValueIdx Idealize.SL.Sem
open Idealize.ShloMosaic.Pipeline (Dat Cfg Window)
open Cert.KernelIdeal Cert.KernelIdeal.Gen

open Cert.QuantLinear.Tiling

/-- The output block's index (p, q) at point t sits at row 512·(t mod 16) + p and column 2048·(t div 16) + q of the
    output array. -/
theorem out_index (t : Fin cfg0.N) (p : Fin 512) (q : Fin 2048) (R C : Fin 8192)
    (hR : R.val = t.val % 16 * 512 + p.val) (hC : C.val = t.val / 16 * 2048 + q.val) :
    ((cfg0.win 4).blk t).view.emb (ix2 p q) = ix2 R C := by
  obtain ⟨-, -, -, -, -, -, -, -, e40, e41⟩ := block_indices t
  funext a; apply Fin.ext
  match a with
  | ⟨0, _⟩ => show win0_4.index t (0 : Fin 2) * 512 + 1 * p.val = R.val; omega
  | ⟨1, _⟩ => show win0_4.index t (1 : Fin 2) * 2048 + 1 * q.val = C.val; omega

/-- A vector written back at point t is block t of `G` once each of its entries is `G` at the entry's place in the
    output array. -/
theorem written_block (t : Fin cfg0.N) (P : Vec Ideal S512x2048 .f32) (G : S8192x8192.Idx → EReal)
    (h : ∀ (p : Fin 512) (q : Fin 2048) (R C : Fin 8192), R.val = t.val % 16 * 512 + p.val → C.val = t.val / 16 * 2048 + q.val →
      P (ix2 p q) = G (ix2 R C)) :
    (cfg0.win 4).cut (grid0.coords t) P = ((cfg0.win 4).blk t).view.read (Elt Ideal) G := by
  have ht : t.val < 64 := t.isLt
  refine funext fun (j : S512x2048.Idx) => ?_
  obtain ⟨p, q, rfl⟩ : ∃ (p : Fin 512) (q : Fin 2048), j = ix2 p q := ⟨j 0, j 1, eq_ix2 j⟩
  have hp : p.val < 512 := p.isLt
  have hq : q.val < 2048 := q.isLt
  show P (ix2 p q) = G (((cfg0.win 4).blk t).view.emb (ix2 p q))
  rw [out_index t p q ⟨t.val % 16 * 512 + p.val, by omega⟩ ⟨t.val / 16 * 2048 + q.val, by omega⟩ rfl rfl]
  exact h p q _ _ rfl rfl

section BlockReads

variable {F : FTy → Type} [FloatOps F] (m : (ℓ : Loc nD τ sig) → Buf (Elt F) ℓ)

/-- The four input blocks at point t, read at an index, are the staged arrays at the matching rows and columns,
    whatever the float values: the activations' block at (p, k) is the matrix at (512·(t mod 16) + p, k); -/
theorem act_block (c : Dev nD) (t : Fin cfg0.N) (p : Fin 512) (k : Fin 2048) (R : Fin 8192) (hR : R.val = t.val % 16 * 512 + p.val) :
    iblk m c 0 t (ix2 p k) = V m c main_v10 (ix2 R k) := by
  obtain ⟨e00, e01, -, -, -, -, -, -, -, -⟩ := block_indices t
  show V m c main_v10 (((cfg0.win 0).blk t).view.emb (ix2 p k)) = V m c main_v10 (ix2 R k)
  refine congrArg (V m c main_v10) ?_
  funext a; apply Fin.ext
  match a with
  | ⟨0, _⟩ => show win0_0.index t (0 : Fin 2) * 512 + 1 * p.val = R.val; omega
  | ⟨1, _⟩ => show win0_0.index t (1 : Fin 2) * 2048 + 1 * k.val = k.val; omega

/-- the weights' block at (q, k) is the weights at (2048·(t div 16) + q, k); -/
theorem weight_block (c : Dev nD) (t : Fin cfg0.N) (q : Fin 2048) (k : Fin 2048) (C : Fin 8192) (hC : C.val = t.val / 16 * 2048 + q.val) :
    iblk m c 1 t (ix2 q k) = V m c main_v11 (ix2 C k) := by
  obtain ⟨-, -, e10, e11, -, -, -, -, -, -⟩ := block_indices t
  show V m c main_v11 (((cfg0.win 1).blk t).view.emb (ix2 q k)) = V m c main_v11 (ix2 C k)
  refine congrArg (V m c main_v11) ?_
  funext a; apply Fin.ext
  match a with
  | ⟨0, _⟩ => show win0_1.index t (0 : Fin 2) * 2048 + 1 * q.val = C.val; omega
  | ⟨1, _⟩ => show win0_1.index t (1 : Fin 2) * 2048 + 1 * k.val = k.val; omega

/-- the scale row's block at (0, q) is the row at (0, 2048·(t div 16) + q); -/
theorem scale_block (c : Dev nD) (t : Fin cfg0.N) (q : Fin 2048) (C : Fin 8192) (hC : C.val = t.val / 16 * 2048 + q.val) :
    iblk m c 2 t (ix2 (0 : Fin 1) q) = V m c main_v14 (ix2 (0 : Fin 1) C) := by
  obtain ⟨-, -, -, -, e20, e21, -, -, -, -⟩ := block_indices t
  show V m c main_v14 (((cfg0.win 2).blk t).view.emb (ix2 (0 : Fin 1) q)) = V m c main_v14 (ix2 (0 : Fin 1) C)
  refine congrArg (V m c main_v14) ?_
  funext a; apply Fin.ext
  match a with
  | ⟨0, _⟩ => show win0_2.index t (0 : Fin 2) * 1 + 1 * 0 = 0; omega
  | ⟨1, _⟩ => show win0_2.index t (1 : Fin 2) * 2048 + 1 * q.val = C.val; omega

/-- and the same for the bias row. -/
theorem bias_block (c : Dev nD) (t : Fin cfg0.N) (q : Fin 2048) (C : Fin 8192) (hC : C.val = t.val / 16 * 2048 + q.val) :
    iblk m c 3 t (ix2 (0 : Fin 1) q) = V m c main_v15 (ix2 (0 : Fin 1) C) := by
  obtain ⟨-, -, -, -, -, -, e30, e31, -, -⟩ := block_indices t
  show V m c main_v15 (((cfg0.win 3).blk t).view.emb (ix2 (0 : Fin 1) q)) = V m c main_v15 (ix2 (0 : Fin 1) C)
  refine congrArg (V m c main_v15) ?_
  funext a; apply Fin.ext
  match a with
  | ⟨0, _⟩ => show win0_3.index t (0 : Fin 2) * 1 + 1 * 0 = 0; omega
  | ⟨1, _⟩ => show win0_3.index t (1 : Fin 2) * 2048 + 1 * q.val = C.val; omega

end BlockReads

variable (m : (ℓ : Loc nD τ sig) → Buf (Elt Ideal) ℓ)

/-- WHAT POINT t WRITES BACK is block t of the flat layer of the staged arrays. -/
theorem flushed_eq (c : Dev nD) (t : Fin cfg0.N) :
    (dats m 0 c).flushed 4 t = ((cfg0.win 4).blk t).view.read (Elt Ideal)
      (QuantLinear.flatLayer (V m c main_v10) (V m c main_v11) (V m c main_v14) (V m c main_v15)) := by
  show (cfg0.win 4).cut (grid0.coords t) ((dats m 0 c).after 4 t) = _
  rw [after0_4]
  unfold out0_4
  rw [View.canon_unit_zero origin]
  simp only [View.ld_unit_zero (S := S512x2048) origin, View.ld_unit_zero (S := S2048x2048) origin,
    View.ld_unit_zero (S := S1x2048) origin]
  refine written_block t _ _ fun p q R C hR hC => ?_
  exact block_value (V m c main_v10) (V m c main_v11) (V m c main_v14) (V m c main_v15)
    (iblk m c 0 t) (iblk m c 1 t) (iblk m c 2 t) (iblk m c 3 t) p q R C
    (fun k => act_block m c t p k R hR) (fun k => weight_block m c t q k C hC)
    (scale_block m c t q C hC) (bias_block m c t q C hC)

/-- THE OUTPUT ARRAY after the run is the flat layer of the staged arrays. -/
theorem output_eq (c : Dev nD) : (dats m 0 c).arrAt 4 cfg0.N
    = QuantLinear.flatLayer (V m c main_v10) (V m c main_v11) (V m c main_v14) (V m c main_v15) :=
  (dats m 0 c).arrAt_eq_of_cover 4 _ (fun t _ => flushed_eq m c t) covered

end Cert.QuantLinear.Region

end
-- ==== Proof.Result.lean ====
/-
  The kernel program's result: the layer of the quantized activations, the weights, the combined scale and the bias.

  After the region the host re-lays the region's [8192, 8192] output on three axes, [4, 2048, 8192]. The region's
  output is the flat layer of the staged arrays, the staged arrays are the re-laid quantized activations, the
  weights, and the scale and bias rows; by the layout law the re-laid flat layer of re-laid arrays is the layer.
-/
import proofs.«108498_j77859167142257_2_alg».proof.Proof.Gen.KernelIdeal.Frame
import proofs.«108498_j77859167142257_2_alg».proof.Proof.Spec
import proofs.«108498_j77859167142257_2_alg».proof.Proof.Entry
import proofs.«108498_j77859167142257_2_alg».proof.Proof.Region
import Idealize.ShloMosaic.Lib.StableHlo.Run

noncomputable section

namespace Cert.QuantLinear.Result

open Idealize.ShloMosaic Idealize.ShloMosaic.TcCoe Idealize.SL.Sem Idealize.ShloMosaic.StableHlo
open Idealize.ShloMosaic.Pipeline (Dat)
open Cert.KernelIdeal Cert.KernelIdeal.Gen

section Tail

variable {F : FTy → Type} [FloatOps F] (m : (ℓ : Loc nD τ sig) → Buf (Elt F) ℓ)

/-- The one host operation after the region re-lays the region's output array on three axes. -/
theorem tail_eq (c : Dev nD) :
    (Pipeline.afterTail₀ cfgs (dats m) 0 (V0 m) [hostOps1] c main_v17 : Vec F S4x2048x8192 .f32)
      = shapeCast S4x2048x8192 ((dats m 0 c).arrAt 4 cfg0.N) shapeCasts_S8192x8192_S4x2048x8192 := by
  unfold Pipeline.afterTail₀
  show StableHlo.after hostOps1 _ (Proc.devRef .tc main_v17) = _
  after_results
  rw [Pipeline.withArrays_arr spec0 launch0.win.arr_inj c _ _ 4]
  rfl

end Tail

variable (m : (ℓ : Loc nD τ sig) → Buf (Elt Ideal) ℓ) (ρ : Dev nD → PrngReg)

/-- THE RESULT ARRAY as a function of the arguments. -/
theorem result_eq (c : Dev nD) :
    (Pipeline.afterTail₀ cfgs (dats m) 0 (V0 m) [hostOps1] c main_v17 : Vec Ideal S4x2048x8192 .f32)
      = QuantLinear.layer (Entry.quantized (F := Ideal) (m ((c : Thread nD τ).loc main_arg0))) (m ((c : Thread nD τ).loc main_arg1))
          (Entry.combinedScale (F := Ideal) (m ((c : Thread nD τ).loc main_arg0)) (m ((c : Thread nD τ).loc main_arg2)))
          (m ((c : Thread nD τ).loc main_arg3)) := by
  rw [tail_eq m c, Region.output_eq m c, Entry.staged_act m c, Entry.staged_weights m c, Entry.staged_scale m c,
    Entry.staged_bias m c, Entry.narrow_ideal, Entry.narrow_ideal]
  exact QuantLinear.flatLayer_relaid _ _ _ _ _ _ _

/-- THE RUN, READ: every weakly fair execution terminates with the result array at the layer and the arguments
    unchanged. -/
theorem run : θ_run defs (onTc (τ := τ) (main (F := Ideal))) ⟨m, fun _ => 0, ρ⟩ (fun r => ∀ c : Dev nD,
      r.2.mem ((c.tc : Thread nD τ).loc main_v17)
        = QuantLinear.layer (Entry.quantized (F := Ideal) (m ((c : Thread nD τ).loc main_arg0))) (m ((c : Thread nD τ).loc main_arg1))
            (Entry.combinedScale (F := Ideal) (m ((c : Thread nD τ).loc main_arg0)) (m ((c : Thread nD τ).loc main_arg2)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QuantLinear.Result

end
-- ==== Proof.Bridge.lean ====
/-
  The two programs compute the quantized activations and the combined scale by the same operations.

  The reference names its quantized activations and its combined scale as stages of its own run; the kernel
  program's host prefix computes them by the same operations on the same literals, in the same order. The two
  spellings are one term, for any float values.
-/
import proofs.«108498_j77859167142257_2_alg».proof.Proof.Gen.ReferenceIdeal.Read
import proofs.«108498_j77859167142257_2_alg».proof.Proof.Entry

noncomputable section

namespace Cert.QuantLinear.Bridge

open Idealize.ShloMosaic

variable {F : FTy → Type} [FloatOps F]

/-- The reference's clamped, rounded, scaled activations are the kernel program's. -/
theorem quantized_eq (x : FVec F Cert.KernelIdeal.S4x2048x2048 .f32) :
    Cert.ReferenceIdeal.Read.val_main_v8 (F := F) x = Entry.quantized x := rfl

/-- The reference's combined scale is the kernel program's. -/
theorem combined_eq (x : FVec F Cert.KernelIdeal.S4x2048x2048 .f32) (ws : FVec F Cert.KernelIdeal.S8192 .f32) :
    Cert.ReferenceIdeal.Read.val_main_v11 (F := F) x ws = Entry.combinedScale x ws := rfl

end Cert.QuantLinear.Bridge

end
-- ==== Proof.lean ====
/-
  A linear layer on dynamically quantized activations, as a tiled matrix-product kernel, against its plain reference.

  Both programs first quantize the activations x [4, 2048, 2048] on the host by the same operations: the activation
  scale is max |x| / 127 (or 1 when that maximum is 0), the quantized activations are x over the scale, rounded to the
  nearest even integer and clamped to [-127, 127], and the combined scale is the activation scale times the
  per-channel weight scale. The reference then contracts the quantized activations with the weights [8192, 2048]
  over the input feature, multiplies by the combined scale and adds the bias, all on three axes. The kernel program
  re-lays the activations as an [8192, 2048] matrix, runs a grid of 16 × 4 blocks each computing a 512 × 2048 block of
  (rows · weight rows) · scale + bias, and re-lays the [8192, 8192] output on three axes.

  On the extended reals the two results are the same function of the arguments, index by index: the narrowing to
  bf16 on the way into the product is the identity, the zero accumulator adds nothing, and the rest is the same sum,
  product and sum of the same entries read through two layouts, so no finiteness of the inputs is used. The frames
  are the generated ones; the idealization rewrote nothing.
-/
import proofs.«108498_j77859167142257_2_alg».proof.Defs
import proofs.«108498_j77859167142257_2_alg».proof.Proof.Gen.Kernel
import proofs.«108498_j77859167142257_2_alg».proof.Proof.Gen.Kernel.Skeleton
import proofs.«108498_j77859167142257_2_alg».proof.Proof.Gen.Kernel.Launch
import proofs.«108498_j77859167142257_2_alg».proof.Proof.Gen.Kernel.Points
import proofs.«108498_j77859167142257_2_alg».proof.Proof.Gen.Kernel.Frame
import proofs.«108498_j77859167142257_2_alg».proof.Proof.Gen.KernelIdeal
import proofs.«108498_j77859167142257_2_alg».proof.Proof.Gen.KernelIdeal.Skeleton
import proofs.«108498_j77859167142257_2_alg».proof.Proof.Gen.KernelIdeal.Launch
import proofs.«108498_j77859167142257_2_alg».proof.Proof.Gen.KernelIdeal.Points
import proofs.«108498_j77859167142257_2_alg».proof.Proof.Gen.KernelIdeal.Frame
import proofs.«108498_j77859167142257_2_alg».proof.Proof.Gen.ReferenceIdeal
import proofs.«108498_j77859167142257_2_alg».proof.Proof.Gen.ReferenceIdeal.Run
import proofs.«108498_j77859167142257_2_alg».proof.Proof.Gen.ReferenceIdeal.Read
import proofs.«108498_j77859167142257_2_alg».proof.Proof.Gen.Pre_finite_inputs
import proofs.«108498_j77859167142257_2_alg».proof.Proof.Reference
import proofs.«108498_j77859167142257_2_alg».proof.Proof.Result
import proofs.«108498_j77859167142257_2_alg».proof.Proof.Bridge
import Idealize.ShloMosaic.Adequacy
import Idealize.ShloMosaic.Init

noncomputable section

namespace Cert.Proof

open Idealize.ShloMosaic Idealize.SL.Sem Cert.Kernel

/-- The word-level kernel program runs and keeps its arguments. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer of the quantized activations, the weights, the combined
    scale and the bias: the kernel program by its run read through the blocks and the two layouts, the reference by
    its stages read at an index, the quantized activations and the combined scale being one term in both. -/
theorem algebraic : Cert.algebraic_KernelIdeal_ReferenceIdeal := by
  intro m ρ m' ρ' _ hagree
  refine ⟨_, Cert.QuantLinear.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.QuantLinear.Ref.result_eq, (hagree c).1, (hagree c).2.1,
    (hagree c).2.2.1, (hagree c).2.2.2, Cert.QuantLinear.Bridge.quantized_eq, Cert.QuantLinear.Bridge.combined_eq]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
